-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1024 : Shape := ⟨3, ![16, 256, 1024]⟩
abbrev S16x1024 : Shape := ⟨2, ![16, 1024]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x256x1024 .f32) (main_arg1 : FVec F S16x256x1024 .f32) (main_arg2 : FVec F S16x1024 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S16x256x1024 : Shape := ⟨3, ![16, 256, 1024]⟩
abbrev S16x1024 : Shape := ⟨2, ![16, 1024]⟩
abbrev S16x1024x1 : Shape := ⟨3, ![16, 1024, 1]⟩
abbrev S16x1x1024 : Shape := ⟨3, ![16, 1, 1024]⟩
abbrev S16x8x128 : Shape := ⟨3, ![16, 8, 128]⟩
abbrev S1x256x1024 : Shape := ⟨3, ![1, 256, 1024]⟩
abbrev S1x512x1 : Shape := ⟨3, ![1, 512, 1]⟩
abbrev S1x1x1024 : Shape := ⟨3, ![1, 1, 1024]⟩
abbrev S1x8x128 : Shape := ⟨3, ![1, 8, 128]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S1 : Shape := ⟨1, ![1]⟩
abbrev S1x1 : Shape := ⟨2, ![1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x1024, .f32⟩
  | .hbm, ⟨3, _⟩ => ⟨S16x1024x1, .f32⟩
  | .hbm, ⟨4, _⟩ => ⟨S16x1x1024, .f32⟩
  | .hbm, ⟨5, _⟩ => ⟨S16x8x128, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x512x1, .f32⟩
  | .local _ .vmem, ⟨5, _⟩ => ⟨S1x512x1, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128, .f32⟩
  | .local _ .vmem, ⟨9, _⟩ => ⟨S1x8x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_5 : Index := 0#32
  let c0_6 : Index := 0#32
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  ![0, 0, v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  h_S1x256x512 : 0 < S1x256x512.numel
  shapeCasts_S1x256x512_S256x512 : S1x256x512.ShapeCasts S256x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  dot_S256x512_S256x1024_S512x1024_0_0_1_1_n_n_wf : DotDims.WF S256x512 S256x1024 S512x1024 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1x256x512.size a ≤ S1x256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x256x1024.size a
  hwx0_1 : ∀ i : grid0.Coords, EltTy.bits .f32 = 32 ∨ (Rect.block (s := S16x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x1024x1.size a
  hwx0_2 : ∀ i : grid0.Coords, EltTy.bits .f32 = 32 ∨ (Rect.block (s := S16x1024x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x1024.size a
  hwx0_3 : ∀ i : grid0.Coords, EltTy.bits .f32 = 32 ∨ (Rect.block (s := S16x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def dot_S256x512_S256x1024_S512x1024_0_0_1_1_n_n : DotDims S256x512 S256x1024 S512x1024 where
  lhsContracting := [0]
  rhsContracting := [0]
  lhsNonContracting := [1]
  rhsNonContracting := [1]
  lhsBatch := []
  rhsBatch := []
  wf := dot_S256x512_S256x1024_S512x1024_0_0_1_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x1024 : Shape := ⟨3, ![16, 256, 1024]⟩
abbrev S16x1024 : Shape := ⟨2, ![16, 1024]⟩
abbrev S16x1024x256 : Shape := ⟨3, ![16, 1024, 256]⟩
abbrev S16x1024x1 : Shape := ⟨3, ![16, 1024, 1]⟩
abbrev S16x1024x1024 : Shape := ⟨3, ![16, 1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x1024, .f32⟩
  | .hbm, ⟨3, _⟩ => ⟨S16x1024x256, .f32⟩
  | .hbm, ⟨4, _⟩ => ⟨S16x1024x1, .f32⟩
  | .hbm, ⟨5, _⟩ => ⟨S16x1024x256, .f32⟩
  | .hbm, ⟨6, _⟩ => ⟨S16x1024x256, .f32⟩
  | .hbm, ⟨7, _⟩ => ⟨S16x1024x256, .f32⟩
  | .hbm, ⟨8, _⟩ => ⟨S16x1024x1, .f32⟩
  | .hbm, ⟨9, _⟩ => ⟨S16x1024x256, .f32⟩
  | .hbm, ⟨10, _⟩ => ⟨S16x1024x256, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S16x256x1024_S16x1024x256_0_2_1 : S16x256x1024.Transposes [0, 2, 1] S16x1024x256
  bcast_S16x1024_S16x1024x1_0_1 : S16x1024.BroadcastsInDim S16x1024x1 (![0, 1] : Fin 2 → Fin S16x1024x1.rank)
  bcast_S16x1024x1_S16x1024x256_0_1_2 : S16x1024x1.BroadcastsInDim S16x1024x256 (![0, 1, 2] : Fin 3 → Fin S16x1024x256.rank)
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  dot_S16x1024x256_S16x1024x256_S16x1024x1024_2_2_1_1_0_0_wf : DotDims.WF S16x1024x256 S16x1024x256 S16x1024x1024 [2] [2] [1] [1] [0] [0]

variable [Facts₀]

def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf

class Facts : Prop extends Facts₀ where

variable [Facts]
-- ==== Proof.MaskedGram.lean ====
/-
  The one algebraic law that joins the two arrangements of a masked Gram entry.

  The reference scales every row of the transposed inputs by its mask value BEFORE the contraction:
  the entry at (t, s) is the sum over c of (a c * p) * (b c * q), with p the mask at t and q the mask at s.
  The kernel contracts the unscaled inputs and multiplies the result by the outer product p * q afterwards.
  For REAL entries the two are equal (distributivity and commutativity); on the extended reals distributivity
  fails at the infinities, so the law is stated for coerced reals.  Also here: negation as subtraction from zero.
-/
import Mathlib.Data.EReal.Basic
import Mathlib.Data.EReal.Operations
import Mathlib.Algebra.BigOperators.Ring.Finset

namespace Cert.MaskedGram

open scoped BigOperators

/-- A finite sum of coerced reals is the coerced real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Scaling the rows before the contraction, or the contracted entry after it: for real entries and real mask values
    the sum over c of (a c * p) * (b c * q) is (p * q) times the sum over c of a c * b c. -/
theorem masked_gram {ι : Type} [Fintype ι] (a b : ι → ℝ) (p q : ℝ) :
    (∑ c, ((a c : EReal) * (p : EReal)) * ((b c : EReal) * (q : EReal)))
      = ((p : EReal) * (q : EReal)) * ∑ c, (a c : EReal) * (b c : EReal) := by
  simp only [← EReal.coe_mul]
  rw [coe_sum, coe_sum, ← EReal.coe_mul]
  congr 1
  rw [Finset.mul_sum]
  exact Finset.sum_congr rfl fun c _ => by ring

/-- Subtracting from zero is negating, on every extended real. -/
theorem zero_sub_eq_neg (x : EReal) : (0 : EReal) - x = -x := by
  rw [sub_eq_add_neg, zero_add]

end Cert.MaskedGram
-- ==== Proof.LibBlockedSum.lean ====
/-
  A sum over a long axis taken block by block.

  A kernel that walks a reduction axis of length `nb * bs` in `nb` blocks of `bs` consecutive positions, adding each
  block's partial sum into an accumulator, computes the same number as one sum over the whole axis: position `k` of the
  long axis is position `l` of block `kb` exactly when `k = kb * bs + l`.  The statement holds in any commutative
  additive monoid — in particular for extended reals, where no finiteness is needed — and is phrased for a summand
  given on the natural numbers, so that it applies whatever index types the two sides use.
-/
import Mathlib.Algebra.BigOperators.Fin
import Mathlib.Logic.Equiv.Fin.Basic

namespace Cert.LibBlockedSum

/-- Summing `f` over block `kb` and position `l` inside the block, at the flat position `kb * bs + l`, is summing `f`
    over the flat positions `0 … nb * bs - 1`. -/
theorem sum_blocks {M : Type} [AddCommMonoid M] (nb bs : ℕ) (f : ℕ → M) :
    (∑ kb : Fin nb, ∑ l : Fin bs, f (kb.val * bs + l.val)) = ∑ k : Fin (nb * bs), f k.val := by
  rw [← (finProdFinEquiv : Fin nb × Fin bs ≃ Fin (nb * bs)).sum_comp (fun k => f k.val), Fintype.sum_prod_type]
  refine Finset.sum_congr rfl fun a _ => Finset.sum_congr rfl fun b _ => ?_
  refine congrArg f ?_
  simp only [finProdFinEquiv_apply_val]
  rw [Nat.mul_comm, Nat.add_comm]

/-- The accumulator form: starting from `z` and adding the blocks' partial sums one after the other (a left fold over
    the blocks in order) ends at `z` plus the whole sum. -/
theorem foldl_blocks {M : Type} [AddCommMonoid M] (nb bs : ℕ) (f : ℕ → M) (z : M) :
    ((List.finRange nb).foldl (fun acc kb => acc + ∑ l : Fin bs, f (kb.val * bs + l.val)) z)
      = z + ∑ k : Fin (nb * bs), f k.val := by
  rw [← sum_blocks nb bs f]
  have h : ∀ (L : List (Fin nb)) (z : M),
      L.foldl (fun acc kb => acc + ∑ l : Fin bs, f (kb.val * bs + l.val)) z
        = z + (L.map fun kb => ∑ l : Fin bs, f (kb.val * bs + l.val)).sum := by
    intro L
    induction L with
    | nil => intro z; simp
    | cons a L ih => intro z; rw [List.foldl_cons, ih, List.map_cons, List.sum_cons, add_assoc]
  rw [h, ← List.ofFn_eq_map, List.sum_ofFn]

end Cert.LibBlockedSum
-- ==== Proof.LossSpec.lean ====
/-
  The masked similarity loss, as ONE function of the three argument arrays, on the extended reals.

  With inp, tgt of shape [16, 256, 1024] (batch b, channel c, time t) and mask of shape [16, 1024]:
    gram x y b t s   = the sum over c of x (b, c, t) * y (b, c, s)                        (a Gram entry, contracted over channels)
    w b t s          = mask (b, t) * mask (b, s)                                          (the outer product of the mask with itself)
    loss b t s       = exp (0 - (2 * (w * gram inp tgt)) / (w * gram inp inp + w * gram tgt tgt))
    meanLoss         = (the sum over b, t, s of loss b t s) / 2^24,
  the time axis t walked in two tiles of 512 rows: that is the order the kernel accumulates in.
  The reference scales the rows by the mask BEFORE contracting (refGram) and negates instead of subtracting from zero
  (refLoss); for real (finite) entries both agree with the above (refLoss_eq_loss), and the sum over the whole
  [16, 1024, 1024] index set is the tiled sum (sum_tiled): sums of extended reals may be regrouped freely.
-/
import Idealize.ShloMosaic.PureOps.Ideal
import Idealize.ShloMosaic.PureOps.Ideal.Laws
import Idealize.ShloMosaic.Lib.ValueIdx
import proofs.«109486_j695784702578_2_alg».proof.Proof.MaskedGram
import proofs.«109486_j695784702578_2_alg».proof.Proof.LibBlockedSum

noncomputable section

open scoped BigOperators

namespace Cert.MaskedLoss

open Idealize.ShloMosaic Idealize.ShloMosaic.ValueIdx

/-- Arrays of shape [16, 256, 1024] and [16, 1024] of extended reals. -/
abbrev Arr : Type := (⟨3, ![16, 256, 1024]⟩ : Shape).Idx → EReal
abbrev Msk : Type := (⟨2, ![16, 1024]⟩ : Shape).Idx → EReal

/-- The f32 words of 2.0 and of 2^24 = 16 * 1024 * 1024, as extended reals (never evaluated: the same words appear on both sides). -/
abbrev two : EReal := Ideal.ofBits .f32 0x40000000#32
abbrev count : EReal := Ideal.ofBits .f32 0x4B800000#32

/-- A Gram entry of batch b: the channels of x at time t against the channels of y at time s. -/
def gram (x y : Arr) (b : Fin 16) (t s : Fin 1024) : EReal := ∑ c : Fin 256, x (ix3 b c t) * y (ix3 b c s)

/-- The same entry with each row scaled by its mask value before the contraction. -/
def refGram (x y : Arr) (mask : Msk) (b : Fin 16) (t s : Fin 1024) : EReal :=
  ∑ c : Fin 256, (x (ix3 b c t) * mask (ix2 b t)) * (y (ix3 b c s) * mask (ix2 b s))

/-- The loss at (b, t, s): the Gram entries scaled by the mask's outer product after the contraction. -/
def loss (inp tgt : Arr) (mask : Msk) (b : Fin 16) (t s : Fin 1024) : EReal :=
  Ideal.exp (0 - Ideal.div (two * ((mask (ix2 b t) * mask (ix2 b s)) * gram inp tgt b t s))
    ((mask (ix2 b t) * mask (ix2 b s)) * gram inp inp b t s + (mask (ix2 b t) * mask (ix2 b s)) * gram tgt tgt b t s))

/-- The loss at (b, t, s) as the reference arranges it. -/
def refLoss (inp tgt : Arr) (mask : Msk) (b : Fin 16) (t s : Fin 1024) : EReal :=
  Ideal.exp (-(Ideal.div (two * refGram inp tgt mask b t s) (refGram inp inp mask b t s + refGram tgt tgt mask b t s)))

/-- Row l of tile ti of the time axis (two tiles of 512 rows). -/
abbrev tileRow (ti : Fin 2) (l : Fin 512) : Fin 1024 := ⟨ti.val * 512 + l.val, by omega⟩

/-- The sum of the loss over one tile of rows and all columns, for batch b. -/
def tileSum (inp tgt : Arr) (mask : Msk) (b : Fin 16) (ti : Fin 2) : EReal :=
  ∑ l : Fin 512, ∑ s : Fin 1024, loss inp tgt mask b (tileRow ti l) s

/-- The mean loss: the two tiles of every batch added up, over the number of entries. -/
def meanLoss (inp tgt : Arr) (mask : Msk) : EReal :=
  Ideal.div (∑ b : Fin 16, (tileSum inp tgt mask b 0 + tileSum inp tgt mask b 1)) count

/-- An array of reals: every entry is (the coercion of) a real number. -/
def Finite {ι : Type} (x : ι → EReal) : Prop := ∀ i, ∃ r : ℝ, x i = (r : EReal)

/-- For real entries, scaling the rows before the contraction is scaling the contracted entry by the outer product. -/
theorem refGram_eq {x y : Arr} {mask : Msk} (hx : Finite x) (hy : Finite y) (hm : Finite mask) (b : Fin 16) (t s : Fin 1024) :
    refGram x y mask b t s = (mask (ix2 b t) * mask (ix2 b s)) * gram x y b t s := by
  choose xr hxr using hx
  choose yr hyr using hy
  choose mr hmr using hm
  unfold refGram gram
  simp only [hxr, hyr, hmr]
  exact Cert.MaskedGram.masked_gram (fun c => xr (ix3 b c t)) (fun c => yr (ix3 b c s)) (mr (ix2 b t)) (mr (ix2 b s))

/-- So for real entries the reference's loss entry is the kernel's. -/
theorem refLoss_eq_loss {inp tgt : Arr} {mask : Msk} (hi : Finite inp) (ht : Finite tgt) (hm : Finite mask)
    (b : Fin 16) (t s : Fin 1024) : refLoss inp tgt mask b t s = loss inp tgt mask b t s := by
  unfold refLoss loss
  rw [refGram_eq hi ht hm, refGram_eq hi hi hm, refGram_eq ht ht hm, Cert.MaskedGram.zero_sub_eq_neg]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The time axis walked in two tiles of 512 rows. -/
theorem sum_rows_tiled {M : Type} [AddCommMonoid M] (g : Fin 1024 → M) :
    ∑ t : Fin 1024, g t = (∑ l : Fin 512, g (tileRow 0 l)) + ∑ l : Fin 512, g (tileRow 1 l) := by
  have h := Cert.LibBlockedSum.sum_blocks 2 512 (fun k => if hk : k < 1024 then g ⟨k, hk⟩ else 0)
  rw [Fin.sum_univ_two] at h
  have e : (∑ k : Fin (2 * 512), (fun k => if hk : k < 1024 then g ⟨k, hk⟩ else 0) k.val) = ∑ t : Fin 1024, g t := by
    show (∑ k : Fin 1024, (if hk : k.val < 1024 then g ⟨k.val, hk⟩ else 0)) = _
    exact Finset.sum_congr rfl fun k _ => by rw [dif_pos k.isLt]
  rw [← e, ← h]
  congr 1

/-- The sum over the whole [16, 1024, 1024] index set, regrouped by batch and tile. -/
theorem sum_tiled {M : Type} [AddCommMonoid M] (f : Fin 16 → Fin 1024 → Fin 1024 → M) :
    (∑ j : (⟨3, ![16, 1024, 1024]⟩ : Shape).Idx, f (j 0) (j 1) (j 2))
      = ∑ b : Fin 16, ((∑ l : Fin 512, ∑ s : Fin 1024, f b (tileRow 0 l) s) + ∑ l : Fin 512, ∑ s : Fin 1024, f b (tileRow 1 l) s) := by
  rw [sum_idx3]
  refine Finset.sum_congr rfl fun b _ => ?_
  exact sum_rows_tiled (fun t => ∑ s : Fin 1024, f b t s)

end Cert.MaskedLoss

end
-- ==== Proof.TilePieces.lean ====
/-
  What one grid point leaves in the output block, as a value.

  A grid point (b, ti) handles batch b and the tile ti of 512 rows.  Its body reads the two whole [256, 1024] input
  blocks of batch b, the [256, 512] column slice of each at offset 512 * ti, the [512, 1] mask column of the tile and
  the [1, 1024] mask row, computes the [512, 1024] tile of losses, sums it to one number and adds that number to
  every entry of the [8, 128] output block.  At the first tile (ti = 0) the block is first reset to zero and the
  zero block is what the sum is added to; at the second tile the block is what the first tile left.
-/
import proofs.«109486_j695784702578_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TileValue

open Cert.KernelIdeal Cert.KernelIdeal.Gen

variable {F : FTy → Type} [FloatOps F]

theorem zeros3 : (![0, 0, 0] : Fin 3 → Nat) = fun _ => 0 := funext fun a => by fin_cases a <;> rfl

/-- The [256, 512] column slice of an input block that the tile at grid coordinates i reads: columns 512 * ti onwards. -/
abbrev colSlice (i : grid0.Coords) (x : Vec F S1x256x1024 .f32) : Vec F S1x256x512 .f32 :=
  View.ld x (Rect.unit (k0_off1 i) S1x256x512.size (k0_off1_inb i))

/-- The block after the body, as a function of the input blocks and of the block before: the tile's losses summed and
    added to every entry. -/
abbrev step (i : grid0.Coords) (x0 x1 : Vec F S1x256x1024 .f32) (x2 : Vec F S1x512x1 .f32) (x3 : Vec F S1x1x1024 .f32)
    (acc : Vec F S1x8x128 .f32) : Vec F S1x8x128 .f32 :=
  k0_pay2 (k0_pay3 x0 x1 (colSlice i x0) (colSlice i x1) x2 x3) acc

/-- SECOND TILE: the body leaves the block it found plus the tile's sum. -/
theorem out_B (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x512x1 .f32) (h4 : a4.IsWhole) (a5 : Memref sig .tc .vmem S1x1x1024 .f32) (h5 : a5.IsWhole) (a6 : Memref sig .tc .vmem S1x8x128 .f32) (h6 : a6.IsWhole) (hc : ¬cond0_0 i)
    (x0 x1 : Vec F S1x256x1024 .f32) (x2 : Vec F S1x512x1 .f32) (x3 : Vec F S1x1x1024 .f32) (xo4 : Vec F S1x8x128 .f32) :
    out0_B_4 c i a2 h2 a3 h3 a4 h4 a5 h5 a6 h6 hc x0 x1 x2 x3 xo4 = step i x0 x1 x2 x3 xo4 := by
  unfold out0_B_4
  rw [View.read_writes_eq_canon _ _ _ (cover0_B_4 c i a2 h2 a3 h3 a4 h4 a5 h5 a6 h6 hc x0 x1 x2 x3 xo4)]
  unfold kernelRun0_B
  dsimp only
  sl_unfold_words
  rw [View.canon_unit_zero (S := S1x8x128) zeros3]
  simp only [View.readAt_eq_ld, h2.read_unread, h3.read_unread, h4.read_unread, h5.read_unread, h6.read_unread,
    View.ld_unit_zero (S := S1x256x1024) zeros3, View.ld_unit_zero (S := S1x512x1) zeros3,
    View.ld_unit_zero (S := S1x1x1024) zeros3, View.ld_unit_zero (S := S1x8x128) zeros3]
  rfl

/-- FIRST TILE: the body resets the block to zero, reads the zero block back, and leaves it plus the tile's sum. -/
theorem out_A (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x512x1 .f32) (h4 : a4.IsWhole) (a5 : Memref sig .tc .vmem S1x1x1024 .f32) (h5 : a5.IsWhole) (a6 : Memref sig .tc .vmem S1x8x128 .f32) (h6 : a6.IsWhole) (hc : cond0_0 i)
    (x0 x1 : Vec F S1x256x1024 .f32) (x2 : Vec F S1x512x1 .f32) (x3 : Vec F S1x1x1024 .f32) :
    out0_A_4 c i a2 h2 a3 h3 a4 h4 a5 h5 a6 h6 hc x0 x1 x2 x3 = step i x0 x1 x2 x3 k0_pay1 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) zeros3, View.readCov_unit_zero (S := S1x8x128) _ zeros3]
  simp only [View.readAt_eq_ld, h2.read_unread, h3.read_unread, h4.read_unread, h5.read_unread,
    View.ld_unit_zero (S := S1x256x1024) zeros3, View.ld_unit_zero (S := S1x512x1) zeros3,
    View.ld_unit_zero (S := S1x1x1024) zeros3]
  rfl

end Cert.KernelIdeal.TileValue

end
-- ==== Proof.LibColumnProducts.lean ====
/-
  A matrix product contracted along the ROWS of both operands, on the extended reals (general: any extents).

  With A of shape K × M and B of shape K × N, contracting axis 0 of both gives the M × N matrix whose entry (i, j)
  is the sum over l of A (l, i) · B (l, j) — the product of A transposed with B, taken without ever forming the
  transpose.  Into a zero accumulator and with exact arithmetic nothing else is left of the matrix unit's schedule.
-/
import Idealize.ShloMosaic.PureOps.Ideal.Laws
import Idealize.ShloMosaic.Lib.ValueIdx

noncomputable section

open Idealize.ShloMosaic Idealize.ShloMosaic.ValueIdx

namespace Cert.ColumnProducts

/-- A product of a K × M by a K × N matrix, both contracted along axis 0, into a zero accumulator, read at (i, j):
    the sum over the contracted row l of A (l, i) · B (l, j).  The four hypotheses say which coordinate of each
    operand index is the contracted row and which the free column; at a literal record each holds by computation. -/
theorem matmul_zero_apply {M K N : Nat} {φ₁ φ₂ : FTy} (d : DotDims ⟨2, ![K, M]⟩ ⟨2, ![K, N]⟩ ⟨2, ![M, N]⟩)
    (hr : d.contr.rank = 1) (hs : d.contr.size ⟨0, by omega⟩ = K)
    (hl0 : ∀ j k, (d.lhsIdx j k 0).val = (k ⟨0, by omega⟩).val) (hl1 : ∀ j k, (d.lhsIdx j k 1).val = (j 0).val)
    (hr0 : ∀ j k, (d.rhsIdx j k 0).val = (k ⟨0, by omega⟩).val) (hr1 : ∀ j k, (d.rhsIdx j k 1).val = (j 1).val)
    (A : FVec Ideal ⟨2, ![K, M]⟩ φ₁) (B : FVec Ideal ⟨2, ![K, N]⟩ φ₂) (i : Fin M) (j : Fin N) :
    matmul d none A B (constant ⟨2, ![M, N]⟩ .f32 0x00000000#32) (ix2 i j) = ∑ l : Fin K, A (ix2 l i) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 l i := by
    funext a; apply Fin.ext
    match a with
    | ⟨0, _⟩ => exact (hl0 _ _).trans (contrEquiv1_symm_val d K hr hs l)
    | ⟨1, _⟩ => exact hl1 _ _
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

end Cert.ColumnProducts

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibAxisReduce.lean ====
/-
  Reductions along one axis of a matrix, read at an index, on the extended reals (general: any extents).

  * `laneMax_apply`: the maximum along the rows of an [a, b] matrix, folded from the accumulator's value, read at row
    `i`, is the fold of `max` over the entries of row `i`;
  * `rowsSum_apply`: the sum down the columns (over the row axis) read at column `j` is the sum of column `j`;
  * `hostLaneMax_apply`: the host's reduce with a maximum body along the rows, read at row `i`, is the fold of `max`
    from the initial value over the entries of row `i`.
-/
import Idealize.ShloMosaic.PureOps.Ideal.Laws
import Idealize.ShloMosaic.Lib.ValueIdx

noncomputable section

open scoped BigOperators

open Idealize.ShloMosaic Idealize.ShloMosaic.ValueIdx

namespace Cert.AxisReduce

/-- The reduced index `i` of an [a, b] matrix reduced along its rows, with position `k` put back, is `(i, k)`. -/
theorem lift_lane {a b : Nat} (h : (⟨2, ![a, b]⟩ : Shape).Reduces [1] ⟨1, ![a]⟩) (i : Fin a) (k : Fin b) :
    h.lift (ix1 i) k = ix2 i k := by
  funext d; apply Fin.ext
  match d with
  | ⟨0, _⟩ => rfl
  | ⟨1, _⟩ => rfl

/-- The reduced index `j` of an [a, b] matrix reduced over its row axis, with row `r` put back, is `(r, j)`. -/
theorem lift_rows {a b : Nat} (h : (⟨2, ![a, b]⟩ : Shape).Reduces [0] ⟨1, ![b]⟩) (j : Fin b) (r : Fin a) :
    h.lift (ix1 j) r = ix2 r j := by
  funext d; apply Fin.ext
  match d with
  | ⟨0, _⟩ => rfl
  | ⟨1, _⟩ => rfl

/-- The maximum of an `a × b` matrix along its rows, read at `i`: the fold of `max`, from the accumulator's value,
    over row `i`. -/
theorem laneMax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (fun k => src (h.lift (ix1 i) k)) = _
  refine congrArg (fun f => Finset.fold max (Ideal.ofBits φ acc) f (Finset.univ : Finset (Fin b))) ?_
  funext k
  exact congrArg src (lift_lane h i k)

/-- The sum of an `a × b` matrix over its row axis, read at column `j`: the sum of column `j`. -/
theorem rowsSum_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  rw [Ideal.multiReduction_add_single]
  show (∑ r : Fin a, src (h.lift (ix1 j) r)) = _
  refine Finset.sum_congr rfl fun r _ => ?_
  rw [lift_rows]

/-- The host's reduce with a maximum body along the rows of an `a × b` matrix, read at `i`: the fold of `max`, from
    the initial value, over row `i`. -/
theorem hostLaneMax_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  show (Finset.univ : Finset (Fin b)).fold max (init (Shape.Idx.first hu)) (fun k => x (h.lift (ix1 i) k)) = _
  refine congrArg (fun f => Finset.fold max (init (Shape.Idx.first hu)) f (Finset.univ : Finset (Fin b))) ?_
  funext k
  exact congrArg x (lift_lane h i k)

end Cert.AxisReduce

end
-- ==== Proof.TilePayload.lean ====
/-
  The body's arithmetic read at an entry, on the extended reals.

  * tile_apply: entry (r, s) of the [512, 1024] tile of losses, from the loaded blocks: with w the product of the mask
    column at r and the mask row at s, and each Gram entry the sum over the 256 channels l of (tile column r of one
    block at l) * (column s of a whole block at l) — a matrix product contracted along the rows of both operands, the
    change of float format the identity —, it is exp (0 - (2 * (w * xy)) / (w * xx + w * yy)).
  * accum_apply: every entry (u, p, q) of the [1, 8, 128] block after the body is the entry of the block before plus
    the sum of the whole tile (a sum along the rows, then a sum of the resulting column).
  * reset_apply: the reset block is zero everywhere.
-/
import proofs.«109486_j695784702578_2_alg».proof.Proof.Gen.KernelIdeal.Skeleton
import proofs.«109486_j695784702578_2_alg».proof.Proof.LibColumnProducts
import proofs.«109486_j695784702578_2_alg».proof.Proof.LibMatRows
import proofs.«109486_j695784702578_2_alg».proof.Proof.LibAxisReduce
import Idealize.ShloMosaic.PureOps.Ideal.Laws
import Idealize.ShloMosaic.Lib.ValueIdx
import Idealize.ShloMosaic.Lib.ValueLayout
import Idealize.ShloMosaic.Lib.Pipeline.Value

noncomputable section

open scoped BigOperators

open Idealize.ShloMosaic Idealize.ShloMosaic.ValueIdx

namespace Cert.KernelIdeal.TileValue

open Cert.KernelIdeal Cert.KernelIdeal.Gen

local notation "dotT" => dot_S256x512_S256x1024_S512x1024_0_0_1_1_n_n

theorem dotT_l0 (j : S512x1024.Idx) (k : (dotT).contr.Idx) : (((dotT).lhsIdx j k 0).val) = (k ⟨0, by decide⟩).val :=
  (dotT).lhsIdx_val_of_single rfl j k
theorem dotT_l1 (j : S512x1024.Idx) (k : (dotT).contr.Idx) : (((dotT).lhsIdx j k 1).val) = (j 0).val := by
  unfold DotDims.lhsIdx
  rw [dif_neg (show ¬(1 : Fin S256x512.rank) ∈ (dotT).lhsBatch by decide), dif_pos (show (1 : Fin S256x512.rank) ∈ (dotT).lhsNonContracting by decide)]
  rfl
theorem dotT_r0 (j : S512x1024.Idx) (k : (dotT).contr.Idx) : (((dotT).rhsIdx j k 0).val) = (k ⟨0, by decide⟩).val :=
  (dotT).rhsIdx_val_of_single rfl j k
theorem dotT_r1 (j : S512x1024.Idx) (k : (dotT).contr.Idx) : (((dotT).rhsIdx j k 1).val) = (j 1).val := by
  unfold DotDims.rhsIdx
  rw [dif_neg (show ¬(1 : Fin S256x1024.rank) ∈ (dotT).rhsBatch by decide), dif_pos (show (1 : Fin S256x1024.rank) ∈ (dotT).rhsNonContracting by decide)]
  rfl

/-- One Gram entry of the tile: the product, contracted over the 256 channels, of a [256, 512] slice and a
    [256, 1024] block (both given with their leading unit axis), read at (r, s). -/
theorem gram_apply (A : Vec Ideal S1x256x512 .f32) (B : Vec Ideal S1x256x1024 .f32) (r : Fin 512) (s : Fin 1024) :
    (matmul (F := Ideal) dotT none (truncf (F := Ideal) .bf16 (shapeCast S256x512 A shapeCasts_S1x256x512_S256x512) bitsLt_bf16_f32)
        (truncf (F := Ideal) .bf16 (shapeCast S256x1024 B shapeCasts_S1x256x1024_S256x1024) bitsLt_bf16_f32)
        (constant (F := Ideal) S512x1024 .f32 0x00000000#32) (ix2 r s) : EReal)
      = ∑ l : Fin 256, A (ix3 (0 : Fin 1) l r) * B (ix3 (0 : Fin 1) l s) := by
  refine (Cert.ColumnProducts.matmul_zero_apply (M := 512) (K := 256) (N := 1024) dotT rfl rfl dotT_l0 dotT_l1 dotT_r0 dotT_r1 _ _ r s).trans ?_
  refine Finset.sum_congr rfl fun l _ => ?_
  show shapeCast S256x512 A shapeCasts_S1x256x512_S256x512 (ix2 l r) * shapeCast S256x1024 B shapeCasts_S1x256x1024_S256x1024 (ix2 l s) = _
  rw [shapeCast_1ab_ab_apply, shapeCast_1ab_ab_apply]

/-- The mask column of the tile spread over the columns, read at (r, s): the column at r. -/
theorem maskCol_apply (v19 : Vec Ideal S1x512x1 .f32) (r : Fin 512) (s : Fin 1024) :
    broadcastTo S512x1024 (shapeCast S512x1 v19 shapeCasts_S1x512x1_S512x1) broadcasts_S512x1_S512x1024 (ix2 r s)
      = v19 (ix3 (0 : Fin 1) r (0 : Fin 1)) := by
  rw [Cert.MatRows.colBroadcast_apply, shapeCast_1ab_ab_apply]

/-- The mask row spread over the rows, read at (r, s): the row at s. -/
theorem maskRow_apply (v21 : Vec Ideal S1x1x1024 .f32) (r : Fin 512) (s : Fin 1024) :
    broadcastTo S512x1024 (shapeCast S1x1024 v21 shapeCasts_S1x1x1024_S1x1024) broadcasts_S1x1024_S512x1024 (ix2 r s)
      = v21 (ix3 (0 : Fin 1) (0 : Fin 1) s) := by
  rw [broadcastTo_1b_ab_apply, shapeCast_1ab_ab_apply]

/-- Entry (r, s) of the tile of losses. -/
theorem tile_apply (v2 v5 : Vec Ideal S1x256x1024 .f32) (v9 v13 : Vec Ideal S1x256x512 .f32) (v19 : Vec Ideal S1x512x1 .f32)
    (v21 : Vec Ideal S1x1x1024 .f32) (r : Fin 512) (s : Fin 1024) :
    k0_pay3 (F := Ideal) v2 v5 v9 v13 v19 v21 (ix2 r s)
      = Ideal.exp (Ideal.ofBits .f32 0x00000000#32
          - Ideal.div (Ideal.ofBits .f32 0x40000000#32 * ((v19 (ix3 (0 : Fin 1) r (0 : Fin 1)) * v21 (ix3 (0 : Fin 1) (0 : Fin 1) s))
                * ∑ l : Fin 256, v9 (ix3 (0 : Fin 1) l r) * v5 (ix3 (0 : Fin 1) l s)))
              ((v19 (ix3 (0 : Fin 1) r (0 : Fin 1)) * v21 (ix3 (0 : Fin 1) (0 : Fin 1) s)) * (∑ l : Fin 256, v9 (ix3 (0 : Fin 1) l r) * v2 (ix3 (0 : Fin 1) l s))
                + (v19 (ix3 (0 : Fin 1) r (0 : Fin 1)) * v21 (ix3 (0 : Fin 1) (0 : Fin 1) s)) * ∑ l : Fin 256, v13 (ix3 (0 : Fin 1) l r) * v5 (ix3 (0 : Fin 1) l s))) := by
  rw [← gram_apply v9 v5 r s, ← gram_apply v9 v2 r s, ← gram_apply v13 v5 r s, ← maskCol_apply v19 r s, ← maskRow_apply v21 r s]
  rfl

/-- Every entry of the block after the body: the entry before plus the sum of the whole tile. -/
theorem accum_apply (v35 : FVec Ideal S512x1024 .f32) (v45 : Vec Ideal S1x8x128 .f32) (u : Fin 1) (p : Fin 8) (q : Fin 128) :
    k0_pay2 (F := Ideal) v35 v45 (ix3 u p q) = v45 (ix3 (0 : Fin 1) p q) + ∑ r : Fin 512, ∑ s : Fin 1024, v35 (ix2 r s) := by
  unfold k0_pay2
  rw [shapeCast_ab_1ab_apply]
  show shapeCast S8x128 v45 shapeCasts_S1x8x128_S8x128 (ix2 p q) + broadcastTo S8x128 _ broadcasts_S1x1_S8x128 (ix2 p q) = _
  rw [shapeCast_1ab_ab_apply]
  refine congrArg (v45 (ix3 (0 : Fin 1) p q) + ·) ?_
  rw [broadcastTo_apply _ broadcasts_S1x1_S8x128 (ix2 p q) (ix2 (0 : Fin 1) (0 : Fin 1)) (fun a => by
    match a with
    | ⟨0, _⟩ => rfl
    | ⟨1, _⟩ => rfl)]
  rw [shapeCast_self, shapeCast_a_1a_apply]
  refine (Cert.AxisReduce.rowsSum_apply (a := 512) (b := 1) _ 0x00000000#32 reduces_S512x1_S1 _ _ (0 : Fin 1)).trans ?_
  refine Finset.sum_congr rfl fun r _ => ?_
  refine (Cert.MatRows.colCast_apply _ shapeCasts_S512_S512x1 r (0 : Fin 1)).trans ?_
  exact Cert.MatRows.laneSum_apply (a := 512) (b := 1024) v35 0x00000000#32 reduces_S512x1024_S512 _ _ r

/-- The reset block is zero at every entry. -/
theorem reset_apply (y : S1x8x128.Idx) : k0_pay1 (F := Ideal) y = 0 := by
  obtain ⟨u, p, q, rfl⟩ : ∃ (u : Fin 1) (p : Fin 8) (q : Fin 128), y = ix3 u p q := ⟨y 0, y 1, y 2, eq_ix3 y⟩
  unfold k0_pay1
  rw [shapeCast_ab_1ab_apply]
  exact Ideal.ofBits_zero_f32

end Cert.KernelIdeal.TileValue

end
-- ==== Proof.WindowBlocks.lean ====
/-
  What each window's block holds at a grid point, in terms of the argument arrays.

  Grid point t (of 32, row-major over 16 batches x 2 tiles) is batch b = t / 2 and tile ti = t % 2.  There
  * the two input windows hold the whole [256, 1024] slab of batch b of inp and of tgt;
  * the mask-column window holds rows 512 * ti … 512 * ti + 511 of batch b of the mask, as a [512, 1] column
    (the host had re-laid the mask as [16, 1024, 1] before the call);
  * the mask-row window holds batch b of the mask as a [1, 1024] row (re-laid as [16, 1, 1024]);
  * the body's column slice of a slab starts at column 512 * ti.
-/
import proofs.«109486_j695784702578_2_alg».proof.Proof.Gen.KernelIdeal.Frame
import proofs.«109486_j695784702578_2_alg».proof.Proof.TilePieces
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.TileValue

open Cert.KernelIdeal Cert.KernelIdeal.Gen

variable {F : FTy → Type} [FloatOps F]
variable (m : (ℓ : Loc nD τ sig) → Buf (Elt F) ℓ)

/-- The printed index maps and the slice offset, decided once over the 32 grid points. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0)
    ∧ k0_off1 (grid0.coords t) (2 : Fin 3) = (t.val % 2) * 512 :=
  (by decide +kernel : ∀ t : Fin grid0.N, _)

/-- The body's column slice of a slab, read at (u, l, r): the slab at column offset + r. -/
theorem colSlice_apply (i : grid0.Coords) (X : Vec F S1x256x1024 .f32) (u : Fin 1) (l : Fin 256) (r : Fin 512) (s : Fin 1024)
    (hs : s.val = k0_off1 i (2 : Fin 3) + r.val) : colSlice i X (ix3 u l r) = X (ix3 u l s) := by
  show X ((Rect.unit (s := S1x256x1024) (k0_off1 i) S1x256x512.size (k0_off1_inb i)).emb (ix3 u l r)) = _
  refine congrArg X ?_
  funext a; apply Fin.ext
  match a with
  | ⟨0, _⟩ => show k0_off1 i (0 : Fin 3) + 1 * u.val = u.val; show 0 + 1 * u.val = u.val; omega
  | ⟨1, _⟩ => show k0_off1 i (1 : Fin 3) + 1 * l.val = l.val; show 0 + 1 * l.val = l.val; omega
  | ⟨2, _⟩ => show k0_off1 i (2 : Fin 3) + 1 * r.val = s.val; omega

/-- The mask as the host re-laid it before the call: a [16, 1024, 1] array … -/
theorem entry_maskCol (c : Dev nD) :
    (V m c main_v0 : (⟨S16x1024x1, .f32⟩ : BufTy).Contents (Elt F))
      = broadcastInDim S16x1024x1 ![0, 1] bcast_S16x1024_S16x1024x1_0_1 (m ((c : Thread nD τ).loc main_arg2)) := by
  show StableHlo.after hostOps0 (fun b => m (c, b)) (Proc.devRef .tc main_v0) = _
  after_results

/-- … and a [16, 1, 1024] array. -/
theorem entry_maskRow (c : Dev nD) :
    (V m c main_v1 : (⟨S16x1x1024, .f32⟩ : BufTy).Contents (Elt F))
      = broadcastInDim S16x1x1024 ![0, 2] bcast_S16x1024_S16x1x1024_0_2 (m ((c : Thread nD τ).loc main_arg2)) := by
  show StableHlo.after hostOps0 (fun b => m (c, b)) (Proc.devRef .tc main_v1) = _
  after_results

/-- Window 0 at point t: the slab of batch t / 2 of the first argument. -/
theorem blk0_apply (c : Dev nD) (t : Fin cfg0.N) (b : Fin 16) (hb : b.val = t.val / 2) (u : Fin 1) (l : Fin 256) (s : Fin 1024) :
    (iblk m c 0 t : Vec F S1x256x1024 .f32) (ix3 u l s) = m ((c : Thread nD τ).loc main_arg0) (ix3 b l s) := by
  obtain ⟨⟨h0, h1, h2⟩, -⟩ := idx_facts t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 3) * 1 + 1 * u.val = b.val; rw [h0, hb]; omega
  | ⟨1, _⟩ => show win0_0.index t (1 : Fin 3) * 256 + 1 * l.val = l.val; rw [h1]; omega
  | ⟨2, _⟩ => show win0_0.index t (2 : Fin 3) * 1024 + 1 * s.val = s.val; rw [h2]; omega

/-- Window 1 at point t: the slab of batch t / 2 of the second argument. -/
theorem blk1_apply (c : Dev nD) (t : Fin cfg0.N) (b : Fin 16) (hb : b.val = t.val / 2) (u : Fin 1) (l : Fin 256) (s : Fin 1024) :
    (iblk m c 1 t : Vec F S1x256x1024 .f32) (ix3 u l s) = m ((c : Thread nD τ).loc main_arg1) (ix3 b l s) := by
  obtain ⟨-, ⟨h0, h1, h2⟩, -⟩ := idx_facts t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t (0 : Fin 3) * 1 + 1 * u.val = b.val; rw [h0, hb]; omega
  | ⟨1, _⟩ => show win0_1.index t (1 : Fin 3) * 256 + 1 * l.val = l.val; rw [h1]; omega
  | ⟨2, _⟩ => show win0_1.index t (2 : Fin 3) * 1024 + 1 * s.val = s.val; rw [h2]; omega

/-- Window 2 at point t: rows 512 * (t % 2) + r of batch t / 2 of the mask. -/
theorem blk2_apply (c : Dev nD) (t : Fin cfg0.N) (b : Fin 16) (hb : b.val = t.val / 2) (u : Fin 1) (r : Fin 512) (z : Fin 1)
    (row : Fin 1024) (hrow : row.val = (t.val % 2) * 512 + r.val) :
    (iblk m c 2 t : Vec F S1x512x1 .f32) (ix3 u r z) = m ((c : Thread nD τ).loc main_arg2) (ix2 b row) := by
  obtain ⟨-, -, ⟨h0, h1, h2⟩, -⟩ := idx_facts t
  unfold iblk
  rw [View.read_apply]
  show V m c main_v0 _ = _
  rw [entry_maskCol]
  refine broadcastInDim_apply _ bcast_S16x1024_S16x1024x1_0_1 (m ((c : Thread nD τ).loc main_arg2)) _ (ix2 b row) (fun a => ?_)
  match a with
  | ⟨0, _⟩ =>
    show b.val = if (16 : Nat) = 1 then 0 else (win0_2.index t (0 : Fin 3) * 1 + 1 * u.val)
    rw [if_neg (by decide), h0, hb]; omega
  | ⟨1, _⟩ =>
    show row.val = if (1024 : Nat) = 1 then 0 else (win0_2.index t (1 : Fin 3) * 512 + 1 * r.val)
    rw [if_neg (by decide), h1, hrow]; omega

/-- Window 3 at point t: batch t / 2 of the mask, as a row. -/
theorem blk3_apply (c : Dev nD) (t : Fin cfg0.N) (b : Fin 16) (hb : b.val = t.val / 2) (u : Fin 1) (z : Fin 1) (s : Fin 1024) :
    (iblk m c 3 t : Vec F S1x1x1024 .f32) (ix3 u z s) = m ((c : Thread nD τ).loc main_arg2) (ix2 b s) := by
  obtain ⟨-, -, -, ⟨h0, h1, h2⟩, -⟩ := idx_facts t
  unfold iblk
  rw [View.read_apply]
  show V m c main_v1 _ = _
  rw [entry_maskRow]
  refine broadcastInDim_apply _ bcast_S16x1024_S16x1x1024_0_2 (m ((c : Thread nD τ).loc main_arg2)) _ (ix2 b s) (fun a => ?_)
  match a with
  | ⟨0, _⟩ =>
    show b.val = if (16 : Nat) = 1 then 0 else (win0_3.index t (0 : Fin 3) * 1 + 1 * u.val)
    rw [if_neg (by decide), h0, hb]; omega
  | ⟨1, _⟩ =>
    show s.val = if (1024 : Nat) = 1 then 0 else (win0_3.index t (2 : Fin 3) * 1024 + 1 * s.val)
    rw [if_neg (by decide), h2]; omega

end Cert.KernelIdeal.TileValue

end
-- ==== Proof.TileStep.lean ====
/-
  One grid point's update of the output block, in terms of the argument arrays.

  If the blocks a grid point is handed are the slabs of batch b of inp and tgt, rows of tile ti of the mask column of
  batch b and the mask row of batch b, then after the body every entry of the output block is its entry before plus
  tileSum b ti — the sum, over the 512 rows of the tile and all 1024 columns, of the loss.
-/
import proofs.«109486_j695784702578_2_alg».proof.Proof.TilePieces
import proofs.«109486_j695784702578_2_alg».proof.Proof.TilePayload
import proofs.«109486_j695784702578_2_alg».proof.Proof.LossSpec

noncomputable section

open scoped BigOperators

open Idealize.ShloMosaic Idealize.ShloMosaic.ValueIdx

namespace Cert.KernelIdeal.TileValue

open Cert.KernelIdeal Cert.KernelIdeal.Gen Cert.MaskedLoss

theorem step_apply (i : grid0.Coords) (X0 X1 : Vec Ideal S1x256x1024 .f32) (X2 : Vec Ideal S1x512x1 .f32)
    (X3 : Vec Ideal S1x1x1024 .f32) (acc : Vec Ideal S1x8x128 .f32) (inp tgt : Arr) (mask : Msk) (b : Fin 16) (ti : Fin 2)
    (h0 : ∀ (l : Fin 256) (s : Fin 1024), X0 (ix3 (0 : Fin 1) l s) = inp (ix3 b l s))
    (h1 : ∀ (l : Fin 256) (s : Fin 1024), X1 (ix3 (0 : Fin 1) l s) = tgt (ix3 b l s))
    (h2 : ∀ r : Fin 512, X2 (ix3 (0 : Fin 1) r (0 : Fin 1)) = mask (ix2 b (tileRow ti r)))
    (h3 : ∀ s : Fin 1024, X3 (ix3 (0 : Fin 1) (0 : Fin 1) s) = mask (ix2 b s))
    (hs0 : ∀ (l : Fin 256) (r : Fin 512), colSlice i X0 (ix3 (0 : Fin 1) l r) = inp (ix3 b l (tileRow ti r)))
    (hs1 : ∀ (l : Fin 256) (r : Fin 512), colSlice i X1 (ix3 (0 : Fin 1) l r) = tgt (ix3 b l (tileRow ti r)))
    (u : Fin 1) (p : Fin 8) (q : Fin 128) :
    step i X0 X1 X2 X3 acc (ix3 u p q) = acc (ix3 (0 : Fin 1) p q) + tileSum inp tgt mask b ti := by
  show k0_pay2 (F := Ideal) (k0_pay3 X0 X1 (colSlice i X0) (colSlice i X1) X2 X3) acc (ix3 u p q) = _
  rw [accum_apply]
  refine congrArg (acc (ix3 (0 : Fin 1) p q) + ·) ?_
  unfold tileSum
  refine Finset.sum_congr rfl fun r _ => Finset.sum_congr rfl fun s _ => ?_
  rw [tile_apply, h2, h3, Ideal.ofBits_zero_f32]
  unfold loss gram
  simp only [h0, h1, hs0, hs1]

end Cert.KernelIdeal.TileValue

end
-- ==== Proof.OutputArray.lean ====
/-
  The kernel's output array after the call, as one function of the argument arrays.

  The output block of batch b is visited by the two grid points (b, 0) and (b, 1) in this order and written back after
  the second.  After point (b, 0) every entry of the block is tileSum b 0 (the reset zero plus the first tile's sum);
  after point (b, 1) it is tileSum b 0 + tileSum b 1.  So the [16, 8, 128] array ends holding, at (b, p, q), the sum of the
  loss over all rows and columns of batch b, whatever p and q.
-/
import proofs.«109486_j695784702578_2_alg».proof.Proof.Gen.KernelIdeal.Frame
import proofs.«109486_j695784702578_2_alg».proof.Proof.TilePieces
import proofs.«109486_j695784702578_2_alg».proof.Proof.TilePayload
import proofs.«109486_j695784702578_2_alg».proof.Proof.WindowBlocks
import proofs.«109486_j695784702578_2_alg».proof.Proof.TileStep
import proofs.«109486_j695784702578_2_alg».proof.Proof.LossSpec
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.MaskedLoss

variable (m : (ℓ : Loc nD τ sig) → Buf (Elt Ideal) ℓ) (ρ : Dev nD → PrngReg)

/-- The three argument arrays on core c, as arrays of extended reals. -/
abbrev inpOf (c : Dev nD) : Arr := m ((c : Thread nD τ).loc main_arg0)
abbrev tgtOf (c : Dev nD) : Arr := m ((c : Thread nD τ).loc main_arg1)
abbrev maskOf (c : Dev nD) : Msk := m ((c : Thread nD τ).loc main_arg2)

/-- Grid point t = (b, ti) adds tileSum b ti to every entry of the block it finds. -/
theorem point_apply (c : Dev nD) (t : Fin cfg0.N) (b : Fin 16) (hb : b.val = t.val / 2) (ti : Fin 2) (hti : ti.val = t.val % 2)
    (acc : Vec Ideal S1x8x128 .f32) (u : Fin 1) (p : Fin 8) (q : Fin 128) :
    step (grid0.coords t) (iblk m c 0 t) (iblk m c 1 t) (iblk m c 2 t) (iblk m c 3 t) acc (ix3 u p q)
      = acc (ix3 (0 : Fin 1) p q) + tileSum (inpOf m c) (tgtOf m c) (maskOf m c) b ti :=
  step_apply (grid0.coords t) (iblk m c 0 t) (iblk m c 1 t) (iblk m c 2 t) (iblk m c 3 t) acc (inpOf m c) (tgtOf m c) (maskOf m c) b ti
    (fun l s => blk0_apply m c t b hb 0 l s)
    (fun l s => blk1_apply m c t b hb 0 l s)
    (fun r => blk2_apply m c t b hb 0 r 0 (tileRow ti r) (by show ti.val * 512 + r.val = _; rw [hti]))
    (fun s => blk3_apply m c t b hb 0 0 s)
    (fun l r => (colSlice_apply (grid0.coords t) (iblk m c 0 t) 0 l r (tileRow ti r) (by
      show ti.val * 512 + r.val = _; rw [(idx_facts t).2.2.2.2.2, hti])).trans (blk0_apply m c t b hb 0 l (tileRow ti r)))
    (fun l r => (colSlice_apply (grid0.coords t) (iblk m c 1 t) 0 l r (tileRow ti r) (by
      show ti.val * 512 + r.val = _; rw [(idx_facts t).2.2.2.2.2, hti])).trans (blk1_apply m c t b hb 0 l (tileRow ti r)))
    u p q

/-- After the first tile of batch b the block holds that tile's sum everywhere. -/
theorem outsAt_even (c : Dev nD) (t : Fin cfg0.N) (h0 : t.val % 2 = 0) (b : Fin 16) (hb : b.val = t.val / 2)
    (u : Fin 1) (p : Fin 8) (q : Fin 128) :
    (outsAt0 m c t.val t.isLt : Vec Ideal S1x8x128 .f32) (ix3 u p q) = tileSum (inpOf m c) (tgtOf m c) (maskOf m c) b 0 := by
  have e1 := outsAt0_A m c t h0
  have e2 := out_A (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk m c 0 t) (iblk m c 1 t) (iblk m c 2 t) (iblk m c 3 t)
  refine (congrFun (e1.trans e2) (ix3 u p q)).trans ?_
  refine (point_apply m c t b hb 0 (by show 0 = _; omega) (k0_pay1 (F := Ideal)) u p q).trans ?_
  rw [reset_apply, zero_add]

/-- After the second tile it holds the sum of both. -/
theorem outsAt_odd (c : Dev nD) (t : Fin cfg0.N) (h0 : ¬t.val % 2 = 0) (b : Fin 16) (hb : b.val = t.val / 2)
    (u : Fin 1) (p : Fin 8) (q : Fin 128) :
    (outsAt0 m c t.val t.isLt : Vec Ideal S1x8x128 .f32) (ix3 u p q)
      = tileSum (inpOf m c) (tgtOf m c) (maskOf m c) b 0 + tileSum (inpOf m c) (tgtOf m c) (maskOf m c) b 1 := by
  have hlt : t.val - 1 < cfg0.N := Nat.lt_of_le_of_lt (Nat.sub_le _ _) t.isLt
  have e1 := outsAt0_B m c t h0
  have e2 := out_B (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk m c 0 t) (iblk m c 1 t) (iblk m c 2 t) (iblk m c 3 t)
    (outsAt0 m c (t.val - 1) hlt)
  refine (congrFun (e1.trans e2) (ix3 u p q)).trans ?_
  refine (point_apply m c t b hb 1 (by show 1 = _; omega) (outsAt0 m c (t.val - 1) hlt) u p q).trans ?_
  exact congrArg (· + tileSum (inpOf m c) (tgtOf m c) (maskOf m c) b 1)
    (outsAt_even m c ⟨t.val - 1, hlt⟩ (by show (t.val - 1) % 2 = 0; omega) b (by show b.val = (t.val - 1) / 2; omega) 0 p q)

/-- The output array after the call: at (b, p, q) the loss summed over batch b. -/
abbrev outArr (c : Dev nD) : (⟨S16x8x128, .f32⟩ : BufTy).Contents (Elt Ideal) := fun j =>
  tileSum (inpOf m c) (tgtOf m c) (maskOf m c) (j 0) 0 + tileSum (inpOf m c) (tgtOf m c) (maskOf m c) (j 0) 1

/-- What a flushing point (the second tile of its batch) writes back is its block of that array. -/
theorem flushed_eq (c : Dev nD) (t : Fin cfg0.N) (hf : (cfg0.win 4).flush t = true) :
    (dats m 0 c).flushed 4 t = ((cfg0.win 4).blk t).view.read (Elt Ideal) (outArr m c) := by
  have hodd : t.val % 2 = 1 := (flush0_4 t).mp hf
  have hN : t.val < 32 := lt_of_lt_of_eq t.isLt (show cfg0.N = 32 from N_0)
  obtain ⟨-, -, -, -, ⟨h0, h1, h2⟩, -⟩ := idx_facts t
  show (cfg0.win 4).cut (grid0.coords t) ((dats m 0 c).after 4 t) = _
  rw [after0_4]
  refine funext (fun (y : S1x8x128.Idx) => ?_)
  obtain ⟨u, p, q, rfl⟩ : ∃ (u : Fin 1) (p : Fin 8) (q : Fin 128), y = ix3 u p q := ⟨y 0, y 1, y 2, eq_ix3 y⟩
  rw [View.read_apply]
  show (outsAt0 m c t.val t.isLt : Vec Ideal S1x8x128 .f32) (ix3 u p q) = outArr m c (((cfg0.win 4).blk t).view.emb (ix3 u p q))
  rw [outsAt_odd m c t (by omega) ⟨t.val / 2, by omega⟩ rfl u p q]
  have he : (((cfg0.win 4).blk t).view.emb (ix3 u p q)) 0 = (⟨t.val / 2, by omega⟩ : Fin 16) :=
    Fin.ext (by show win0_4.index t (0 : Fin 3) * 1 + 1 * u.val = t.val / 2; rw [h0]; omega)
  show _ = tileSum (inpOf m c) (tgtOf m c) (maskOf m c) ((((cfg0.win 4).blk t).view.emb (ix3 u p q)) 0) 0
    + tileSum (inpOf m c) (tgtOf m c) (maskOf m c) ((((cfg0.win 4).blk t).view.emb (ix3 u p q)) 0) 1
  rw [he]

/-- An index of the array is in point t's block exactly when each coordinate is in the block's range on its axis. -/
theorem mem_blk (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v2).slice (win0_4.rect t)).set ↔ _
  rw [View.set_slice_whole, Rect.mem_set_unit]
  exact Iff.rfl

/-- Every index (b, p, q) of the array is in the block the second tile of batch b writes back. -/
theorem covered (i : S16x8x128.Idx) : ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 128 := (i 2).isLt
  have hN : cfg0.N = 32 := N_0
  refine ⟨⟨2 * (i 0).val + 1, by omega⟩, (flush0_4 _).mpr (by show (2 * (i 0).val + 1) % 2 = 1; omega), ?_⟩
  obtain ⟨-, -, -, -, ⟨h0, h1, h2⟩, -⟩ := idx_facts ⟨2 * (i 0).val + 1, by omega⟩
  rw [mem_blk]
  intro a
  match a with
  | ⟨0, _⟩ =>
    show win0_4.index _ (0 : Fin 3) * 1 ≤ (i 0).val ∧ (i 0).val < win0_4.index _ (0 : Fin 3) * 1 + 1
    rw [h0]; show (2 * (i 0).val + 1) / 2 * 1 ≤ (i 0).val ∧ (i 0).val < (2 * (i 0).val + 1) / 2 * 1 + 1; omega
  | ⟨1, _⟩ =>
    show win0_4.index _ (1 : Fin 3) * 8 ≤ (i 1).val ∧ (i 1).val < win0_4.index _ (1 : Fin 3) * 8 + 8
    rw [h1]; omega
  | ⟨2, _⟩ =>
    show win0_4.index _ (2 : Fin 3) * 128 ≤ (i 2).val ∧ (i 2).val < win0_4.index _ (2 : Fin 3) * 128 + 128
    rw [h2]; omega

/-- So the output array ends holding, at (b, p, q), the loss summed over batch b. -/
theorem final_out (c : Dev nD) : (dats m 0 c).arrAt 4 cfg0.N = outArr m c :=
  (dats m 0 c).arrAt_eq_of_cover 4 (outArr m c) (flushed_eq m c) covered

end Cert.KernelIdeal.TileValue

end
-- ==== Proof.KernelRun.lean ====
/-
  The kernel program's run, read: its scalar result is the mean loss of the argument arrays.

  After the call the host takes entry (b, 0, 0) of the [16, 8, 128] output array for every batch b (a slice and a
  reshape to a vector of 16), sums the 16 numbers from zero and divides by 2^24.  Entry (b, 0, 0) is the loss summed
  over batch b, so the result is meanLoss.
-/
import proofs.«109486_j695784702578_2_alg».proof.Proof.Gen.KernelIdeal.Frame
import proofs.«109486_j695784702578_2_alg».proof.Proof.OutputArray
import proofs.«109486_j695784702578_2_alg».proof.Proof.LossSpec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.MaskedLoss

variable (m : (ℓ : Loc nD τ sig) → Buf (Elt Ideal) ℓ) (ρ : Dev nD → PrngReg)

/-- A rank-1 index set is its one coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host operations after the call, applied to the output array. -/
def tail (X : (⟨S16x8x128, .f32⟩ : BufTy).Contents (Elt Ideal)) : (⟨S_, .f32⟩ : BufTy).Contents (Elt Ideal) :=
  Host.divf (F := Ideal)
    (Host.reduceAdd (F := Ideal) (shapeCast S16 (extractStridedSlice S16x1x1 ![0, 0, 0] X slices_S16x8x128_S16x1x1_0_0_0) shapeCasts_S16x1x1_S16)
      (constant (F := Ideal) S_ .f32 0x00000000#32) reducesTo_S16_S_d0 h_S_)
    (constant (F := Ideal) S_ .f32 0x4B800000#32)

/-- The program's result buffer after the run is the tail of the output array the call left. -/
theorem tail_eq (c : Dev nD) :
    Pipeline.afterTail₀ cfgs (dats m) 0 (V0 m) [hostOps1] c main_v6 = tail (outArr m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v2) = outArr m c :=
    (Pipeline.withArrays_arr spec0 launch0.win.arr_inj c _ _ 4).trans (final_out m c)
  rw [hw]
  rfl

/-- The host's sum of a vector of 16 from zero, at the one index of the scalar result. -/
theorem total16 (Y : (⟨S16, .f32⟩ : BufTy).Contents (Elt Ideal)) (i : S_.Idx) :
    Host.reduceAdd (F := Ideal) Y (constant (F := Ideal) S_ .f32 0x00000000#32) reducesTo_S16_S_d0 h_S_ i
      = ∑ b : Fin 16, Y (ix1 b) := by
  have e : Host.reduceAdd (F := Ideal) Y (constant (F := Ideal) S_ .f32 0x00000000#32) reducesTo_S16_S_d0 h_S_ i
      = Ideal.ofBits .f32 0x00000000#32 + ∑ j : S16.Idx, Y j := by
    simp only [Host.reduceAdd, Ideal.hostReduceAdd_def]
    exact Ideal.hostReduceAdd_total reducesTo_S16_S_d0 (fun b => b.elim0) Y _ i
  rw [e, Ideal.ofBits_zero_f32, zero_add, sum_idx1]

/-- Entry b of the vector the host sums: entry (b, 0, 0) of the output array. -/
theorem picked_apply (X : (⟨S16x8x128, .f32⟩ : BufTy).Contents (Elt Ideal)) (b : Fin 16) :
    shapeCast S16 (extractStridedSlice S16x1x1 ![0, 0, 0] X slices_S16x8x128_S16x1x1_0_0_0) shapeCasts_S16x1x1_S16 (ix1 b)
      = X (ix3 b (0 : Fin 8) (0 : Fin 128)) := by
  rw [shapeCast_apply _ shapeCasts_S16x1x1_S16 (ix1 b) (ix3 b (0 : Fin 1) (0 : Fin 1)) (by
    rw [Shape.rowMajor_val_three, Shape.rowMajor_val_one]
    show (b.val * 1 + 0) * 1 + 0 = b.val
    omega)]
  exact extractStridedSlice_apply _ X slices_S16x8x128_S16x1x1_0_0_0 (ix3 b (0 : Fin 1) (0 : Fin 1)) (ix3 b (0 : Fin 8) (0 : Fin 128)) (fun a => by
    match a with
    | ⟨0, _⟩ => show b.val = 0 + b.val; omega
    | ⟨1, _⟩ => rfl
    | ⟨2, _⟩ => rfl)

/-- The tail of the output array the call left is the mean loss. -/
theorem tail_outArr (c : Dev nD) (i : S_.Idx) : tail (outArr m c) i = meanLoss (inpOf m c) (tgtOf m c) (maskOf m c) := by
  unfold tail
  show Ideal.div (Host.reduceAdd (F := Ideal) _ (constant (F := Ideal) S_ .f32 0x00000000#32) reducesTo_S16_S_d0 h_S_ i)
      (Ideal.ofBits .f32 0x4B800000#32) = _
  rw [total16]
  unfold meanLoss
  refine congrArg (fun z => Ideal.div z count) (Finset.sum_congr rfl fun b _ => ?_)
  rw [picked_apply]

/-- THE RUN, READ: every weakly fair execution of the kernel program ends with its scalar result at the mean loss of the
    argument arrays, which end unchanged. -/
theorem run : θ_run defs (onTc (τ := τ) (main (F := Ideal))) ⟨m, fun _ => 0, ρ⟩ fun r => ∀ c : Dev nD,
      r.2.mem ((c.tc : Thread nD τ).loc main_v6) = (fun _ => meanLoss (inpOf m c) (tgtOf m c) (maskOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans
        ((tail_eq m c).trans (funext fun i => tail_outArr m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.TileValue

end
-- ==== Proof.RefValue.lean ====
/-
  The reference's result, read back as the mean loss.

  The reference transposes inp and tgt to [16, 1024, 256], scales row (b, t) by mask (b, t), contracts the channel
  axis in three batched products, forms exp (-(2 * xy / (xx + yy))) entry by entry, sums all 16 * 1024 * 1024
  entries from zero and divides by that count.  Entry (b, t, s) is refLoss b t s; for real inputs that is loss b t s,
  and the sum over the whole index set is the tiled sum: the result is meanLoss.
-/
import proofs.«109486_j695784702578_2_alg».proof.Proof.Gen.ReferenceIdeal.Read
import proofs.«109486_j695784702578_2_alg».proof.Proof.LossSpec

noncomputable section

open scoped BigOperators

open Idealize.ShloMosaic Idealize.ShloMosaic.ValueIdx

namespace Cert.ReferenceIdeal.RefValue

open Cert.ReferenceIdeal Cert.ReferenceIdeal.Gen Cert.ReferenceIdeal.Read Cert.MaskedLoss

/-! The composed index functions of the reading lemmas, at an index given by its coordinates. -/

theorem idx_v0 (b : Fin 16) (t : Fin 1024) (k : Fin 256) : idx_main_v0 (ix3 b t k) = ix3 b k t :=
  funext fun a => Fin.ext (by match a with | ⟨0, _⟩ => rfl | ⟨1, _⟩ => rfl | ⟨2, _⟩ => rfl)
theorem idx_v4 (b : Fin 16) (t : Fin 1024) (k : Fin 256) : idx_main_v4 (ix3 b t k) = ix3 b k t :=
  funext fun a => Fin.ext (by match a with | ⟨0, _⟩ => rfl | ⟨1, _⟩ => rfl | ⟨2, _⟩ => rfl)
theorem idx_v21 (b : Fin 16) (t : Fin 1024) (k : Fin 256) : idx_main_v1 (idx_main_v2 (ix3 b t k)) = ix2 b t :=
  funext fun a => Fin.ext (by match a with | ⟨0, _⟩ => rfl | ⟨1, _⟩ => rfl)
theorem idx_v65 (b : Fin 16) (t : Fin 1024) (k : Fin 256) : idx_main_v5 (idx_main_v6 (ix3 b t k)) = ix2 b t :=
  funext fun a => Fin.ext (by match a with | ⟨0, _⟩ => rfl | ⟨1, _⟩ => rfl)
theorem lidx8 (b : Fin 16) (t s : Fin 1024) (k : Fin 256) : lidx_main_v8 (ix3 b t s) k = ix3 b t k :=
  funext fun a => Fin.ext (by match a with | ⟨0, _⟩ => rfl | ⟨1, _⟩ => rfl | ⟨2, _⟩ => rfl)
theorem ridx8 (b : Fin 16) (t s : Fin 1024) (k : Fin 256) : ridx_main_v8 (ix3 b t s) k = ix3 b s k :=
  funext fun a => Fin.ext (by match a with | ⟨0, _⟩ => rfl | ⟨1, _⟩ => rfl | ⟨2, _⟩ => rfl)
theorem lidx9 (b : Fin 16) (t s : Fin 1024) (k : Fin 256) : lidx_main_v9 (ix3 b t s) k = ix3 b t k :=
  funext fun a => Fin.ext (by match a with | ⟨0, _⟩ => rfl | ⟨1, _⟩ => rfl | ⟨2, _⟩ => rfl)
theorem ridx9 (b : Fin 16) (t s : Fin 1024) (k : Fin 256) : ridx_main_v9 (ix3 b t s) k = ix3 b s k :=
  funext fun a => Fin.ext (by match a with | ⟨0, _⟩ => rfl | ⟨1, _⟩ => rfl | ⟨2, _⟩ => rfl)
theorem lidx10 (b : Fin 16) (t s : Fin 1024) (k : Fin 256) : lidx_main_v10 (ix3 b t s) k = ix3 b t k :=
  funext fun a => Fin.ext (by match a with | ⟨0, _⟩ => rfl | ⟨1, _⟩ => rfl | ⟨2, _⟩ => rfl)
theorem ridx10 (b : Fin 16) (t s : Fin 1024) (k : Fin 256) : ridx_main_v10 (ix3 b t s) k = ix3 b s k :=
  funext fun a => Fin.ext (by match a with | ⟨0, _⟩ => rfl | ⟨1, _⟩ => rfl | ⟨2, _⟩ => rfl)

/-- A row of the first scaled operand: inp transposed, times the mask of its row. -/
theorem v3_apply (x0 : Arr) (x2 : Msk) (b : Fin 16) (t : Fin 1024) (k : Fin 256) :
    val_main_v3 (F := Ideal) x0 x2 (ix3 b t k) = x0 (ix3 b k t) * x2 (ix2 b t) := by
  rw [val_main_v3_apply, val_main_v0_apply, val_main_v2_apply, val_main_v1_apply, idx_v0, idx_v21]
  rfl

/-- A row of the second scaled operand. -/
theorem v7_apply (x1 : Arr) (x2 : Msk) (b : Fin 16) (t : Fin 1024) (k : Fin 256) :
    val_main_v7 (F := Ideal) x1 x2 (ix3 b t k) = x1 (ix3 b k t) * x2 (ix2 b t) := by
  rw [val_main_v7_apply, val_main_v4_apply, val_main_v6_apply, val_main_v5_apply, idx_v4, idx_v65]
  rfl

/-- Entry (b, t, s) of the array the reference sums. -/
theorem v16_apply (x0 x1 : Arr) (x2 : Msk) (b : Fin 16) (t s : Fin 1024) :
    val_main_v16 (F := Ideal) x0 x1 x2 (ix3 b t s) = refLoss x0 x1 x2 b t s := by
  rw [val_main_v16_apply, val_main_v15_apply, val_main_v14_apply, val_main_v12_apply, val_main_v13_apply,
    val_main_v11_apply, val_main_cst_apply, val_main_v8_apply, val_main_v9_apply, val_main_v10_apply]
  simp only [lidx8, ridx8, lidx9, ridx9, lidx10, ridx10, v3_apply, v7_apply]
  rfl

/-- The reference's result, for real inputs, is the mean loss. -/
theorem result_eq (x0 x1 : Arr) (x2 : Msk) (hi : Finite x0) (ht : Finite x1) (hm : Finite x2) (i : S_.Idx) :
    val_main_v18 (F := Ideal) x0 x1 x2 i = meanLoss x0 x1 x2 := by
  rw [val_main_v18_apply, val_main_v17_apply, val_main_cst_1_apply, val_main_cst_0_apply]
  show Ideal.div (Ideal.ofBits .f32 0x00000000#32 + ∑ j : S16x1024x1024.Idx, val_main_v16 (F := Ideal) x0 x1 x2 j)
      (Ideal.ofBits .f32 0x4B800000#32) = _
  rw [Ideal.ofBits_zero_f32, zero_add]
  unfold meanLoss
  refine congrArg (fun z => Ideal.div z count) ?_
  have e : ∀ j : S16x1024x1024.Idx, val_main_v16 (F := Ideal) x0 x1 x2 j = loss x0 x1 x2 (j 0) (j 1) (j 2) := fun j =>
    (congrArg (val_main_v16 (F := Ideal) x0 x1 x2) (eq_ix3 j)).trans
      ((v16_apply x0 x1 x2 (j 0) (j 1) (j 2)).trans (refLoss_eq_loss hi ht hm (j 0) (j 1) (j 2)))
  rw [Finset.sum_congr rfl fun j _ => e j]
  exact sum_tiled (fun b t s => loss x0 x1 x2 b t s)

end Cert.ReferenceIdeal.RefValue

end
-- ==== Proof.FiniteInputs.lean ====
/-
  The precondition, decoded: every entry of the three argument arrays is a real number.

  The precondition is the conjunction, over the three arrays, of "every entry has absolute value below +infinity"
  (an elementwise comparison reduced by "and" over the whole array).  An extended real whose absolute value
  max x (-x) is below +infinity is neither infinity, hence a real.
-/
import proofs.«109486_j695784702578_2_alg».proof.Pre_finite_inputs
import proofs.«109486_j695784702578_2_alg».proof.Proof.Gen.Pre_finite_inputs
import proofs.«109486_j695784702578_2_alg».proof.Proof.LossSpec
import Idealize.ShloMosaic.Lib.ReduceAll
import Idealize.ShloMosaic.Lib.Affine
import Idealize.ShloMosaic.Lib.ValueIdx
import Idealize.ShloMosaic.PureOps.Ideal

noncomputable section

open Idealize.ShloMosaic Idealize.ShloMosaic.ValueIdx

namespace Cert.Pre_finite_inputs.Decode

open Cert.Pre_finite_inputs Cert.MaskedLoss

instance : Subsingleton S_.Idx := ⟨fun a b => funext fun d => d.elim0⟩

/-- The f32 word 0x7F800000 is +infinity. -/
theorem inf_word : Ideal.ofBits .f32 0x7F800000#32 = ⊤ := by simp [Ideal.ofBits, Ideal.ieee]

/-- An extended real whose absolute value compares below +infinity is a real. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- The precondition gives: every entry of every argument array is a real. -/
theorem finite_of_pre (x0 x1 : FVec Ideal S16x256x1024 .f32) (x2 : FVec Ideal S16x1024 .f32)
    (h : fn (F := Ideal) x0 x1 x2 = fun _ => 1#1) : Finite x0 ∧ Finite x1 ∧ Finite x2 := by
  have h0 := congrFun h ix0
  dsimp only [fn] at h0
  have h0' : IntOp.andi (IntOp.andi _ _) _ = 1#1 := h0
  obtain ⟨hab, hc⟩ := IntOp.andi_eq_one.1 h0'
  obtain ⟨ha, hb⟩ := IntOp.andi_eq_one.1 hab
  refine ⟨fun i => ?_, fun i => ?_, fun i => ?_⟩
  · exact real_of_abs_lt _ (Host.reduce_andi_all _ _ _ _ _ ha i)
  · exact real_of_abs_lt _ (Host.reduce_andi_all _ _ _ _ _ hb i)
  · exact real_of_abs_lt _ (Host.reduce_andi_all _ _ _ _ _ hc i)

end Cert.Pre_finite_inputs.Decode

end
-- ==== Proof.lean ====
/-
  The masked similarity loss: a Pallas kernel against its jnp reference, equal on the extended reals.

  Both programs take inp, tgt of shape [16, 256, 1024] (batch, channel, time) and mask of shape [16, 1024] and return one
  number: the mean over (b, t, s) of exp (-(2 * xy / (xx + yy))), where xy, xx, yy are the Gram entries of the
  mask-scaled, channel-contracted inputs at times t and s of batch b.

  * The reference scales each row by its mask value, then contracts (three batched products), negates, exponentiates,
    sums everything from zero and divides by 2^24.
  * The kernel walks a 16 x 2 grid: point (b, ti) contracts the unscaled [256, 512] column tile of batch b against the
    whole [256, 1024] slabs (products contracted along the rows of both operands, the bf16 casts the identity here),
    multiplies by the outer product of the mask with itself afterwards, subtracts from zero instead of negating, sums
    the [512, 1024] tile and accumulates the two tile sums of a batch in an [8, 128] output block (reset at ti = 0);
    the host then adds entry (b, 0, 0) over the batches from zero and divides by 2^24.

  The two agree because, for REAL inputs (the precondition: every input entry is finite), scaling rows before a
  contraction equals scaling the contracted entry by the product of the two mask values (distributivity, which the
  extended reals only have away from the infinities), because 0 - x = -x on every extended real, and because a sum of
  extended reals may be regrouped freely (by batch, by tile, by row).  The modules: MaskedGram (the law), LossSpec (the
  loss as one function, the regrouping), TilePieces / TilePayload / TileStep (what one grid point does to the block),
  WindowBlocks (what the windows hold), OutputArray (the block after both tiles; the array after the call), KernelRun
  (the host's tail; the kernel program's run), RefValue (the reference's result), FiniteInputs (the precondition read).
-/
import proofs.«109486_j695784702578_2_alg».proof.Defs
import proofs.«109486_j695784702578_2_alg».proof.Proof.Gen.Kernel
import proofs.«109486_j695784702578_2_alg».proof.Proof.Gen.Kernel.Frame
import proofs.«109486_j695784702578_2_alg».proof.Proof.Gen.KernelIdeal
import proofs.«109486_j695784702578_2_alg».proof.Proof.Gen.KernelIdeal.Frame
import proofs.«109486_j695784702578_2_alg».proof.Proof.Gen.ReferenceIdeal
import proofs.«109486_j695784702578_2_alg».proof.Proof.Gen.ReferenceIdeal.Run
import proofs.«109486_j695784702578_2_alg».proof.Proof.Gen.ReferenceIdeal.Read
import proofs.«109486_j695784702578_2_alg».proof.Proof.Gen.Pre_finite_inputs
import proofs.«109486_j695784702578_2_alg».proof.Proof.LossSpec
import proofs.«109486_j695784702578_2_alg».proof.Proof.KernelRun
import proofs.«109486_j695784702578_2_alg».proof.Proof.RefValue
import proofs.«109486_j695784702578_2_alg».proof.Proof.FiniteInputs
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- From memories agreeing on the three arguments, all entries finite, both idealized programs end with the mean loss
    of the arguments in their result. -/
theorem algebraic : Cert.algebraic_KernelIdeal_ReferenceIdeal := by
  intro m ρ m' ρ' hpre hagree
  refine ⟨fun c _ => Cert.MaskedLoss.meanLoss (Cert.KernelIdeal.TileValue.inpOf m c) (Cert.KernelIdeal.TileValue.tgtOf m c)
    (Cert.KernelIdeal.TileValue.maskOf m c), Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  obtain ⟨f0, f1, f2⟩ := Cert.Pre_finite_inputs.Decode.finite_of_pre _ _ _ (hpre c)
  funext i
  exact Cert.ReferenceIdeal.RefValue.result_eq _ _ _ f0 f1 f2 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
